-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x128 : Shape := ⟨2, ![128, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x128 : S_.BroadcastsInDim S128x128 (![] : Fin 0 → Fin S128x128.rank)
  reducesTo_S128x128_S_d0_1 : S128x128.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S128x128 .f32) (main_arg6 : FVec F S8192 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S8192x128 .f32) (main_arg1 : FVec F S8192x8192 .f32) (main_arg2 : FVec F S8192x8192 .f32) (main_arg3 : FVec F S128x128 .f32) (main_arg4 : FVec F S8192 .f32) (main_arg5 : FVec F S128x128 .f32) (main_arg6 : FVec F S8192 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S8192x8192 .f32 := Host.absf main_arg2
  let main_cst_2 : FVec F S_ .f32 := constant S_ .f32 0x7F800000#32
  let main_v10 : FVec F S8192x8192 .f32 := broadcastInDim S8192x8192 ![] bcast_S_S8192x8192 main_cst_2
  let main_v11 : IVec S8192x8192 1 := cmpf .olt main_v9 main_v10
  let main_c_3 : IVec S_ 1 := constantI S_ 1 1#1
  let main_v12 : IVec S_ 1 := (fun x v => Host.reduce IntOp.andi x v reducesTo_S8192x8192_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S8192x128 : Shape := ⟨2, ![8192, 128]⟩
abbrev S8192x8192 : Shape := ⟨2, ![8192, 8192]⟩
abbrev S128x128 : Shape := ⟨2, ![128, 128]⟩
abbrev S8192 : Shape := ⟨1, ![8192]⟩
abbrev S8192x1 : Shape := ⟨2, ![8192, 1]⟩
abbrev S256x8192 : Shape := ⟨2, ![256, 8192]⟩
abbrev S256x1 : Shape := ⟨2, ![256, 1]⟩
abbrev S256x128 : Shape := ⟨2, ![256, 128]⟩

abbrev nBuf : Space → Nat
  | .hbm => 16
  | .vmem => 25
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S128x128, .f32⟩
  | .hbm, ⟨4, _⟩ => ⟨S8192, .f32⟩
  | .hbm, ⟨5, _⟩ => ⟨S128x128, .f32⟩
  | .hbm, ⟨6, _⟩ => ⟨S8192, .f32⟩
  | .hbm, ⟨7, _⟩ => ⟨S8192x128, .f32⟩
  | .hbm, ⟨8, _⟩ => ⟨S8192x128, .bf16⟩
  | .hbm, ⟨9, _⟩ => ⟨S8192x1, .f32⟩
  | .hbm, ⟨10, _⟩ => ⟨S8192x128, .bf16⟩
  | .hbm, ⟨11, _⟩ => ⟨S128x128, .bf16⟩
  | .hbm, ⟨12, _⟩ => ⟨S8192x128, .bf16⟩
  | .hbm, ⟨13, _⟩ => ⟨S8192x1, .f32⟩
  | .hbm, ⟨14, _⟩ => ⟨S8192x128, .bf16⟩
  | .hbm, ⟨15, _⟩ => ⟨S8192x128, .f32⟩
  | .local _ .vmem, ⟨0, _⟩ => ⟨S256x8192, .f32⟩
  | .local _ .vmem, ⟨1, _⟩ => ⟨S256x8192, .f32⟩
  | .local _ .vmem, ⟨2, _⟩ => ⟨S8192x128, .bf16⟩
  | .local _ .vmem, ⟨3, _⟩ => ⟨S256x1, .f32⟩
  | .local _ .vmem, ⟨4, _⟩ => ⟨S256x1, .f32⟩
  | .local _ .vmem, ⟨5, _⟩ => ⟨S256x128, .bf16⟩
  | .local _ .vmem, ⟨6, _⟩ => ⟨S256x128, .bf16⟩
  | .local _ .vmem, ⟨7, _⟩ => ⟨S256x8192, .f32⟩
  | .local _ .vmem, ⟨8, _⟩ => ⟨S256x8192, .f32⟩
  | .local _ .vmem, ⟨9, _⟩ => ⟨S8192x128, .bf16⟩
  | .local _ .vmem, ⟨10, _⟩ => ⟨S128x128, .bf16⟩
  | .local _ .vmem, ⟨11, _⟩ => ⟨S256x128, .bf16⟩
  | .local _ .vmem, ⟨12, _⟩ => ⟨S256x128, .bf16⟩
  | .local _ .vmem, ⟨13, _⟩ => ⟨S256x8192, .f32⟩
  | .local _ .vmem, ⟨14, _⟩ => ⟨S256x8192, .f32⟩
  | .local _ .vmem, ⟨15, _⟩ => ⟨S8192x128, .bf16⟩
  | .local _ .vmem, ⟨16, _⟩ => ⟨S256x1, .f32⟩
  | .local _ .vmem, ⟨17, _⟩ => ⟨S256x1, .f32⟩
  | .local _ .vmem, ⟨18, _⟩ => ⟨S256x128, .bf16⟩
  | .local _ .vmem, ⟨19, _⟩ => ⟨S256x128, .bf16⟩
  | .local _ .vmem, ⟨20, _⟩ => ⟨S256x8192, .f32⟩
  | .local _ .vmem, ⟨21, _⟩ => ⟨S256x8192, .f32⟩
  | .local _ .vmem, ⟨22, _⟩ => ⟨S8192x128, .bf16⟩
  | .local _ .vmem, ⟨23, _⟩ => ⟨S256x128, .f32⟩
  | .local _ .vmem, ⟨24, _⟩ => ⟨S256x128, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x8192 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8192x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![32], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x8192 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S8192x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S256x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bitsLt_bf16_f32 : FTy.bits .bf16 < FTy.bits .f32
  shapeCasts_S8192_S8192x1 : S8192.ShapeCasts S8192x1
  inb_S256x8192_S256x8192_0_0 : ∀ a, (![0, 0] : Fin 2 → Nat) a + S256x8192.size a ≤ S256x8192.size a
  h_S256x8192 : 0 < S256x8192.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  broadcasts_S256x1_S256x128 : S256x1.Broadcasts S256x128
  inb_S256x128_S256x128_0_0 : ∀ a, (![0, 0] : Fin 2 → Nat) a + S256x128.size a ≤ S256x128.size a
  h_S256x128 : 0 < S256x128.numel
  packedbf16_S256x128_S256x128_0_0 : (Rect.unit (s := S256x128) ![0, 0] S256x128.size inb_S256x128_S256x128_0_0).PackedRows (EltTy.packing .bf16)
  inb_S128x128_S128x128_0_0 : ∀ a, (![0, 0] : Fin 2 → Nat) a + S128x128.size a ≤ S128x128.size a
  h_S128x128 : 0 < S128x128.numel
  shapeCasts_S128x128_S128x128 : S128x128.ShapeCasts S128x128
  dot_S8192x128_S128x128_S8192x128_1_0_0_1_n_n_wf : DotDims.WF S8192x128 S128x128 S8192x128 [1] [0] [0] [1] [] []
  dot_S256x8192_S8192x128_S256x128_1_0_0_1_n_n_wf : DotDims.WF S256x8192 S8192x128 S256x128 [1] [0] [0] [1] [] []
  dot_S256x128_S128x128_S256x128_1_0_0_1_n_n_wf : DotDims.WF S256x128 S128x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8192.size a ≤ S8192x8192.size a
  hwx0_0 : ∀ i : grid0.Coords, EltTy.bits .f32 = 32 ∨ (Rect.block (s := S8192x8192) S256x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .bf16 = 32 ∨ (Rect.block (s := S8192x128) S8192x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S8192x1.size a
  hwx0_2 : ∀ i : grid0.Coords, EltTy.bits .f32 = 32 ∨ (Rect.block (s := S8192x1) S256x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S8192x128.size a
  hwx0_3 : ∀ i : grid0.Coords, EltTy.bits .bf16 = 32 ∨ (Rect.block (s := S8192x128) S256x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x8192.size a ≤ S8192x8192.size a
  hwx1_0 : ∀ i : grid1.Coords, EltTy.bits .f32 = 32 ∨ (Rect.block (s := S8192x8192) S256x8192.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S8192x128.size a ≤ S8192x128.size a
  hwx1_1 : ∀ i : grid1.Coords, EltTy.bits .bf16 = 32 ∨ (Rect.block (s := S8192x128) S8192x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .bf16 = 32 ∨ (Rect.block (s := S128x128) S128x128.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S8192x128.size a
  hwx1_3 : ∀ i : grid1.Coords, EltTy.bits .bf16 = 32 ∨ (Rect.block (s := S8192x128) S256x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x8192.size a ≤ S8192x8192.size a
  hwx2_0 : ∀ i : grid2.Coords, EltTy.bits .f32 = 32 ∨ (Rect.block (s := S8192x8192) S256x8192.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8192x128.size a ≤ S8192x128.size a
  hwx2_1 : ∀ i : grid2.Coords, EltTy.bits .bf16 = 32 ∨ (Rect.block (s := S8192x128) S8192x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S8192x1.size a
  hwx2_2 : ∀ i : grid2.Coords, EltTy.bits .f32 = 32 ∨ (Rect.block (s := S8192x1) S256x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x128.size a ≤ S8192x128.size a
  hwx2_3 : ∀ i : grid2.Coords, EltTy.bits .bf16 = 32 ∨ (Rect.block (s := S8192x128) S256x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x8192.size a ≤ S8192x8192.size a
  hwx3_0 : ∀ i : grid3.Coords, EltTy.bits .f32 = 32 ∨ (Rect.block (s := S8192x8192) S256x8192.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S8192x128.size a ≤ S8192x128.size a
  hwx3_1 : ∀ i : grid3.Coords, EltTy.bits .bf16 = 32 ∨ (Rect.block (s := S8192x128) S8192x128.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x128.size a ≤ S8192x128.size a
  hwx3_2 : ∀ i : grid3.Coords, EltTy.bits .f32 = 32 ∨ (Rect.block (s := S8192x128) S256x128.size (cc3_transform_2 i) (hinb3_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S256x8192_S8192x128_S256x128_1_0_0_1_n_n : DotDims S256x8192 S8192x128 S256x128 where
  lhsContracting := [1]
  rhsContracting := [0]
  lhsNonContracting := [0]
  rhsNonContracting := [1]
  lhsBatch := []
  rhsBatch := []
  wf := dot_S256x8192_S8192x128_S256x128_1_0_0_1_n_n_wf
def dot_S256x128_S128x128_S256x128_1_0_0_1_n_n : DotDims S256x128 S128x128 S256x128 where
  lhsContracting := [1]
  rhsContracting := [0]
  lhsNonContracting := [0]
  rhsNonContracting := [1]
  lhsBatch := []
  rhsBatch := []
  wf := dot_S256x128_S128x128_S256x128_1_0_0_1_n_n_wf

abbrev win0_0 : Pipeline.Window sig grid0 :=
  Pipeline.Window.ofSpec (Memref.whole main_arg2) S256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S256x8192.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S8192x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S256x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S256x8192.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v5) S8192x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v6) S256x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S256x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_arg1) S256x8192.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v7) S8192x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v8) S256x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S8192x128 : Shape := ⟨2, ![8192, 128]⟩
abbrev S8192x8192 : Shape := ⟨2, ![8192, 8192]⟩
abbrev S128x128 : Shape := ⟨2, ![128, 128]⟩
abbrev S8192 : Shape := ⟨1, ![8192]⟩
abbrev S8192x1 : Shape := ⟨2, ![8192, 1]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S8192x8192, .f32⟩
  | .hbm, ⟨3, _⟩ => ⟨S128x128, .f32⟩
  | .hbm, ⟨4, _⟩ => ⟨S8192, .f32⟩
  | .hbm, ⟨5, _⟩ => ⟨S128x128, .f32⟩
  | .hbm, ⟨6, _⟩ => ⟨S8192, .f32⟩
  | .hbm, ⟨7, _⟩ => ⟨S8192x128, .f32⟩
  | .hbm, ⟨8, _⟩ => ⟨S8192x128, .f32⟩
  | .hbm, ⟨9, _⟩ => ⟨S8192x1, .f32⟩
  | .hbm, ⟨10, _⟩ => ⟨S8192x128, .f32⟩
  | .hbm, ⟨11, _⟩ => ⟨S8192x128, .f32⟩
  | .hbm, ⟨12, _⟩ => ⟨S8192x128, .f32⟩
  | .hbm, ⟨13, _⟩ => ⟨S_, .f32⟩
  | .hbm, ⟨14, _⟩ => ⟨S8192x128, .f32⟩
  | .hbm, ⟨15, _⟩ => ⟨S8192x128, .f32⟩
  | .hbm, ⟨16, _⟩ => ⟨S8192x128, .f32⟩
  | .hbm, ⟨17, _⟩ => ⟨S8192x128, .f32⟩
  | .hbm, ⟨18, _⟩ => ⟨S8192x1, .f32⟩
  | .hbm, ⟨19, _⟩ => ⟨S8192x128, .f32⟩
  | .hbm, ⟨20, _⟩ => ⟨S8192x128, .f32⟩
  | .hbm, ⟨21, _⟩ => ⟨S8192x128, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S_S8192x128 : S_.BroadcastsInDim S8192x128 (![] : Fin 0 → Fin S8192x128.rank)
  dot_S8192x128_S128x128_S8192x128_1_0_0_1_n_n_wf : DotDims.WF S8192x128 S128x128 S8192x128 [1] [0] [0] [1] [] []
  dot_S8192x8192_S8192x128_S8192x128_1_0_0_1_n_n_wf : DotDims.WF S8192x8192 S8192x128 S8192x128 [1] [0] [0] [1] [] []

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x8192_S8192x128_S8192x128_1_0_0_1_n_n : DotDims S8192x8192 S8192x128 S8192x128 where
  lhsContracting := [1]
  rhsContracting := [0]
  lhsNonContracting := [0]
  rhsNonContracting := [1]
  lhsBatch := []
  rhsBatch := []
  wf := dot_S8192x8192_S8192x128_S8192x128_1_0_0_1_n_n_wf

class Facts : Prop extends Facts₀ where

variable [Facts]
-- ==== Proof.ValueRun.lean ====
/-
  The idealized kernel program's run, with its result named.

  The program is four grid regions among three short stretches of host operations. Its run is the chain of those
  seven segments from the launch memory; at the end every array that outlives the regions holds the contents the
  last segment boundary assigns it. The frame statement reads the seven argument arrays off that boundary; read
  the result array off it as well and the run says what the program returns: the last boundary's contents of the
  fourth region's output array.
-/
import proofs.«147948_j13383118094871_2_alg».proof.Proof.Gen.KernelIdeal.Frame

set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution from the launch memory terminates without a fault, with the result array at the
    last boundary's contents and the seven arguments as launched. -/
theorem run : θ_run defs (onTc (τ := τ) (main (F := F))) ⟨m, fun _ => 0, ρ⟩ (fun r => ∀ c : Dev nD,
      r.2.mem ((c.tc : Thread nD τ).loc main_v8) = W7 m ρ c (Proc.devRef .tc main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v8 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c)⟩)

end Cert.KernelIdeal.ValueRun

end
-- ==== Proof.LibMatrixRows.lean ====
/-
  Matrices over the extended reals, by coordinates, for any extents.

  Four operations on matrices indexed as rank-2 arrays are:

      times A B      (p, c) ↦ Σ_k A (p, k) · B (k, c)        the matrix product
      scaleRows f X  (p, c) ↦ f (p, 0) · X (p, c)            diag(f) · X, for f a one-column matrix
      column x       (p, 0) ↦ x p                            a vector laid out as one column
      clampBelow z X (p, c) ↦ max (X (p, c)) z               every entry clamped below at z (the rectifier at z = 0)

  each read at an index by `rfl`, and `rows σ X`, the rows of X picked by a map σ of row numbers (a band of
  consecutive rows is σ r = base + r). A product's rows depend only on the same rows of its left factor:

      rows σ (times A B) = times (rows σ A) B,      rows σ (scaleRows f X) = scaleRows (rows σ f) (rows σ X),
      rows σ (clampBelow z X) = clampBelow z (rows σ X)

  all by `rfl`. This is what makes a product computed band by band (each grid point loading a band of rows of the
  left factor and the whole right factor) the product of the whole arrays. Sums and products are total on the
  extended reals, so nothing here needs a finiteness hypothesis.
-/
import Idealize.ShloMosaic.Lib.ValueIdx
import Idealize.ShloMosaic.PureOps.Ideal.Laws

noncomputable section

namespace Cert.LibMatrixRows

open Idealize.ShloMosaic Idealize.ShloMosaic.ValueIdx
open scoped BigOperators

/-- An a × b matrix of extended reals, indexed as a rank-2 array is. -/
abbrev Mat (a b : ℕ) : Type := (⟨2, ![a, b]⟩ : Shape).Idx → EReal

/-- A vector of a extended reals, indexed as a rank-1 array is. -/
abbrev Vect (a : ℕ) : Type := (⟨1, ![a]⟩ : Shape).Idx → EReal

variable {M K N P : ℕ}

/-- The matrix product. -/
def times (A : Mat M K) (B : Mat K N) : Mat M N := fun i => ∑ k : Fin K, A (ix2 (i 0) k) * B (ix2 k (i 1))

/-- Row p of X multiplied by the entry p of a one-column matrix: diag(f) · X. -/
def scaleRows (f : Mat M 1) (X : Mat M N) : Mat M N := fun i => f (ix2 (i 0) (0 : Fin 1)) * X i

/-- A vector as a one-column matrix. -/
def column (x : Vect M) : Mat M 1 := fun i => x (ix1 (i 0))

/-- Every entry replaced by the larger of itself and z. -/
def clampBelow (z : EReal) (X : Mat M N) : Mat M N := fun i => max (X i) z

theorem times_apply (A : Mat M K) (B : Mat K N) (p : Fin M) (c : Fin N) :
    times A B (ix2 p c) = ∑ k : Fin K, A (ix2 p k) * B (ix2 k c) := rfl

theorem scaleRows_apply (f : Mat M 1) (X : Mat M N) (p : Fin M) (c : Fin N) :
    scaleRows f X (ix2 p c) = f (ix2 p (0 : Fin 1)) * X (ix2 p c) := rfl

theorem column_apply (x : Vect M) (p : Fin M) (u : Fin 1) : column x (ix2 p u) = x (ix1 p) := rfl

theorem clampBelow_apply (z : EReal) (X : Mat M N) (p : Fin M) (c : Fin N) :
    clampBelow z X (ix2 p c) = max (X (ix2 p c)) z := rfl

/-! ## Rows of a product

Row p of A · B is row p of A times B: cutting a band of rows out of the left factor and multiplying is cutting
the same band out of the product. The band is given by a map of row numbers. -/

/-- The rows of a matrix picked by a map of row numbers. -/
def rows (σ : Fin M → Fin P) (X : Mat P N) : Mat M N := fun i => X (ix2 (σ (i 0)) (i 1))

theorem rows_apply (σ : Fin M → Fin P) (X : Mat P N) (p : Fin M) (c : Fin N) : rows σ X (ix2 p c) = X (ix2 (σ p) c) := rfl

theorem rows_times (σ : Fin M → Fin P) (A : Mat P K) (B : Mat K N) : rows σ (times A B) = times (rows σ A) B := rfl

theorem rows_scaleRows (σ : Fin M → Fin P) (f : Mat P 1) (X : Mat P N) :
    rows σ (scaleRows f X) = scaleRows (rows σ f) (rows σ X) := rfl

theorem rows_clampBelow (σ : Fin M → Fin P) (z : EReal) (X : Mat P N) :
    rows σ (clampBelow z X) = clampBelow z (rows σ X) := rfl

end Cert.LibMatrixRows

end
-- ==== Proof.LibMatmul2d.lean ====
/-
  A matrix product of the exact instance read at an index, for two-dimensional operands.

  At the exact instance a product into a zero accumulator is, at the output index (i, j), the sum over the
  contraction index of the operands' products. The contraction index is a one-axis multi-index; the operands are
  addressed through the dimension record's index maps. This file turns that into the textbook form

      (A · B) (i, j) = Σ_{k < K} A (i, k) · B (k, j)            (M×K by K×N),
      (A · Bᵀ) (i, j) = Σ_{k < K} A (i, k) · B (j, k)           (M×K by N×K),

  with the sum over `Fin K` and every index written by coordinates, for the library's two canonical dimension
  records. A printed program's own record with the same six index lists is equal to the canonical one by `rfl`
  (its well-formedness field is a proposition), so `rw [show dot_… = DotDims.plain M K N from rfl]` brings a printed
  product under these lemmas.
-/
import Idealize.ShloMosaic.Lib.ValueIdx
import Idealize.ShloMosaic.PureOps.Ideal.Laws

noncomputable section

namespace Cert.LibMatmul2d

open Idealize.ShloMosaic Idealize.ShloMosaic.ValueIdx
open scoped BigOperators

variable {M K N : ℕ}

/-! ## M×K by K×N -/

section Plain

local notation "D" => DotDims.plain M K N

theorem plain_rank : (D).contr.rank = 1 := rfl
theorem plain_size : (D).contr.size ⟨0, by rw [plain_rank]; exact Nat.one_pos⟩ = K := rfl

/-- The left operand's row is the output's row. -/
theorem plain_lhs_row (i : Fin M) (j : Fin N) (k : (D).contr.Idx) : (D).lhsIdx (ix2 i j) k (0 : Fin 2) = i := by
  unfold DotDims.lhsIdx
  simp [DotDims.plain]
  first | rfl | exact Fin.ext rfl | (apply Fin.ext; simp)

/-- The right operand's column is the output's column. -/
theorem plain_rhs_col (i : Fin M) (j : Fin N) (k : (D).contr.Idx) : (D).rhsIdx (ix2 i j) k (1 : Fin 2) = j := by
  unfold DotDims.rhsIdx
  simp [DotDims.plain]
  first | rfl | exact Fin.ext rfl | (apply Fin.ext; simp)

/-- The product of an M×K by a K×N operand into a zero accumulator, at (i, j). -/
theorem matmul_plain_apply {φ₁ φ₂ : FTy} (a : FVec Ideal ⟨2, ![M, K]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 i k) * b (ix2 k j) := by
  rw [Ideal.matmul_constant_zero_apply, ← Equiv.sum_comp (contrEquiv1 (D) K plain_rank plain_size).symm]
  refine Finset.sum_congr rfl fun k _ => ?_
  have hl : (D).lhsIdx (ix2 i j) ((contrEquiv1 (D) K plain_rank plain_size).symm k) = ix2 i k := by
    funext ax
    match ax with
    | ⟨0, _⟩ => exact plain_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K plain_rank plain_size k
  have hr : (D).rhsIdx (ix2 i j) ((contrEquiv1 (D) K plain_rank plain_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K plain_rank plain_size k
    | ⟨1, _⟩ => exact plain_rhs_col i j _
  rw [hl, hr]

end Plain

/-! ## M×K by N×K: the right operand contracted on its last axis -/

section TransposedRhs

local notation "D" => DotDims.transposedRhs M K N

theorem trhs_rank : (D).contr.rank = 1 := rfl
theorem trhs_size : (D).contr.size ⟨0, by rw [trhs_rank]; exact Nat.one_pos⟩ = K := rfl

theorem trhs_lhs_row (i : Fin M) (j : Fin N) (k : (D).contr.Idx) : (D).lhsIdx (ix2 i j) k (0 : Fin 2) = i := by
  unfold DotDims.lhsIdx
  simp [DotDims.transposedRhs]
  first | rfl | exact Fin.ext rfl | (apply Fin.ext; simp)

theorem trhs_rhs_row (i : Fin M) (j : Fin N) (k : (D).contr.Idx) : (D).rhsIdx (ix2 i j) k (0 : Fin 2) = j := by
  unfold DotDims.rhsIdx
  simp [DotDims.transposedRhs]
  first | rfl | exact Fin.ext rfl | (apply Fin.ext; simp)

/-- The product of an M×K operand with the transpose of an N×K operand into a zero accumulator, at (i, j). -/
theorem matmul_transposedRhs_apply {φ₁ φ₂ : FTy} (a : FVec Ideal ⟨2, ![M, K]⟩ φ₁) (b : FVec Ideal ⟨2, ![N, K]⟩ φ₂)
    (i : Fin M) (j : Fin N) :
    FloatOps.matmul (D) none a b (constant ⟨2, ![M, N]⟩ .f32 0x00000000#32) (ix2 i j)
      = ∑ k : Fin K, a (ix2 i k) * b (ix2 j k) := by
  rw [Ideal.matmul_constant_zero_apply, ← Equiv.sum_comp (contrEquiv1 (D) K trhs_rank trhs_size).symm]
  refine Finset.sum_congr rfl fun k _ => ?_
  have hl : (D).lhsIdx (ix2 i j) ((contrEquiv1 (D) K trhs_rank trhs_size).symm k) = ix2 i k := by
    funext ax
    match ax with
    | ⟨0, _⟩ => exact trhs_lhs_row i j _
    | ⟨1, _⟩ =>
      refine Fin.ext ?_
      rw [show (⟨1, by decide⟩ : Fin 2) = (1 : Fin 2) from rfl, DotDims.lhsIdx_val_of_single (D) (cl := (1 : Fin 2)) rfl]
      exact contrEquiv1_symm_val (D) K trhs_rank trhs_size k
  have hr : (D).rhsIdx (ix2 i j) ((contrEquiv1 (D) K trhs_rank trhs_size).symm k) = ix2 j k := by
    funext ax
    match ax with
    | ⟨0, _⟩ => exact trhs_rhs_row i j _
    | ⟨1, _⟩ =>
      refine Fin.ext ?_
      rw [show (⟨1, by decide⟩ : Fin 2) = (1 : Fin 2) from rfl, DotDims.rhsIdx_val_of_single (D) (cr := (1 : Fin 2)) rfl]
      exact contrEquiv1_symm_val (D) K trhs_rank trhs_size k
  rw [hl, hr]

end TransposedRhs

/-! ## K×M by K×N: both operands contracted on their first axis -/

/-- `<[0], [0], [1], [1], [0, 1, 1, 1], [], []>`: the transpose of a K×M operand by a K×N operand. -/
def transposedLhs (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

section TransposedLhs

local notation "D" => transposedLhs K M N

theorem tlhs_rank : (D).contr.rank = 1 := rfl
theorem tlhs_size : (D).contr.size ⟨0, by rw [tlhs_rank]; exact Nat.one_pos⟩ = K := rfl

theorem tlhs_lhs_col (i : Fin M) (j : Fin N) (k : (D).contr.Idx) : (D).lhsIdx (ix2 i j) k (1 : Fin 2) = i := by
  unfold DotDims.lhsIdx
  simp [transposedLhs]
  first | rfl | exact Fin.ext rfl | (apply Fin.ext; simp)

theorem tlhs_rhs_col (i : Fin M) (j : Fin N) (k : (D).contr.Idx) : (D).rhsIdx (ix2 i j) k (1 : Fin 2) = j := by
  unfold DotDims.rhsIdx
  simp [transposedLhs]
  first | rfl | exact Fin.ext rfl | (apply Fin.ext; simp)

/-- The product of the transpose of a K×M operand with a K×N operand into a zero accumulator, at (i, j). -/
theorem matmul_transposedLhs_apply {φ₁ φ₂ : FTy} (a : FVec Ideal ⟨2, ![K, M]⟩ φ₁) (b : FVec Ideal ⟨2, ![K, N]⟩ φ₂)
    (i : Fin M) (j : Fin N) :
    FloatOps.matmul (D) none a b (constant ⟨2, ![M, N]⟩ .f32 0x00000000#32) (ix2 i j)
      = ∑ k : Fin K, a (ix2 k i) * b (ix2 k j) := by
  rw [Ideal.matmul_constant_zero_apply, ← Equiv.sum_comp (contrEquiv1 (D) K tlhs_rank tlhs_size).symm]
  refine Finset.sum_congr rfl fun k _ => ?_
  have hl : (D).lhsIdx (ix2 i j) ((contrEquiv1 (D) K tlhs_rank tlhs_size).symm k) = ix2 k i := by
    funext ax
    match ax with
    | ⟨0, _⟩ =>
      refine Fin.ext ?_
      rw [show (⟨0, by decide⟩ : Fin 2) = (0 : Fin 2) from rfl, DotDims.lhsIdx_val_of_single (D) (cl := (0 : Fin 2)) rfl]
      exact contrEquiv1_symm_val (D) K tlhs_rank tlhs_size k
    | ⟨1, _⟩ => exact tlhs_lhs_col i j _
  have hr : (D).rhsIdx (ix2 i j) ((contrEquiv1 (D) K tlhs_rank tlhs_size).symm k) = ix2 k j := by
    funext ax
    match ax with
    | ⟨0, _⟩ =>
      refine Fin.ext ?_
      rw [show (⟨0, by decide⟩ : Fin 2) = (0 : Fin 2) from rfl, DotDims.rhsIdx_val_of_single (D) (cr := (0 : Fin 2)) rfl]
      exact contrEquiv1_symm_val (D) K tlhs_rank tlhs_size k
    | ⟨1, _⟩ => exact tlhs_rhs_col i j _
  rw [hl, hr]

end TransposedLhs

end Cert.LibMatmul2d

end
-- ==== Proof.LibRowwise.lean ====
/-
  Matrices read row by row, at the exact instance and for any extents.

  Two layout operations in their column forms — a vector made a one-column matrix (`[a] → [a, 1]`, what a sum that keeps
  its axis prints) and a one-column matrix repeated along its rows (`[a, 1] → [a, b]`) — read at an index written by
  coordinates, beside the library's row forms, so that "a per-row quantity broadcast over the row" and "a per-column
  quantity broadcast down the column" are each one rewrite.

  And the reductions of a matrix over its LAST axis read at a row: a sum is the sum over the row's entries, a maximum
  the fold of `max` over them from the starting value, on the vector unit (`multiReduction`) and on the host
  (`Host.reduceAdd`, `Host.reduce`) alike. The reduced index with a coordinate put back on the dropped axis is
  (row, coordinate): `lift_lastAxis`.
-/
import Idealize.ShloMosaic.Lib.ValueLayout
import Idealize.ShloMosaic.Lib.IdealHost
import Idealize.ShloMosaic.PureOps.Ideal.Laws

noncomputable section

namespace Cert.LibRowwise

open Idealize.ShloMosaic Idealize.ShloMosaic.ValueIdx
open scoped BigOperators

variable {α : Type}

/-! ## Column layouts -/

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A per-row quantity `x : [a]`, kept as a column and repeated along the rows, reads `x p` everywhere in row `p`. -/
theorem perRow_apply {a b : ℕ} (x : (⟨1, ![a]⟩ : Shape).Idx → α) (h₁ : (⟨1, ![a]⟩ : Shape).ShapeCasts ⟨2, ![a, 1]⟩)
    (h₂ : (⟨2, ![a, 1]⟩ : Shape).Broadcasts ⟨2, ![a, b]⟩) (p : Fin a) (c : Fin b) :
    broadcastTo ⟨2, ![a, b]⟩ (shapeCast ⟨2, ![a, 1]⟩ x h₁) h₂ (ix2 p c) = x (ix1 p) :=
  (broadcastTo_a1_ab_apply _ h₂ p c).trans (shapeCast_a_a1_apply x h₁ p 0)

/-- A per-column quantity `x : [b]`, laid as one row and repeated down the rows, reads `x c` everywhere in column `c`. -/
theorem perColumn_apply {a b : ℕ} (x : (⟨1, ![b]⟩ : Shape).Idx → α) (h₁ : (⟨1, ![b]⟩ : Shape).ShapeCasts ⟨2, ![1, b]⟩)
    (h₂ : (⟨2, ![1, b]⟩ : Shape).Broadcasts ⟨2, ![a, b]⟩) (p : Fin a) (c : Fin b) :
    broadcastTo ⟨2, ![a, b]⟩ (shapeCast ⟨2, ![1, b]⟩ x h₁) h₂ (ix2 p c) = x (ix1 c) :=
  (broadcastTo_1b_ab_apply _ h₂ p c).trans (shapeCast_a_1a_apply x h₁ 0 c)

/-! ## Reductions over the last axis, at a row -/

/-- Row `p` with the coordinate `k` put back on the dropped last axis is the matrix index `(p, k)`. -/
theorem lift_lastAxis {a b : ℕ} (h : (⟨2, ![a, b]⟩ : Shape).Reduces [1] ⟨1, ![a]⟩) (p : Fin a) (k : Fin b) :
    h.lift (ix1 p) k = ix2 p k := by
  funext c
  apply Fin.ext
  show h.liftVal (ix1 p) k.val c = _
  unfold Shape.Reduces.liftVal
  match c with
  | ⟨0, _⟩ => exact (dif_neg (show ¬((0 : ℕ) = 1) by omega)).trans (dif_pos (show (0 : ℕ) < 1 by omega))
  | ⟨1, _⟩ => exact dif_pos (show (1 : ℕ) = 1 from rfl)

/-- The vector unit's sum of a matrix over its last axis, at row `p`: the sum of the row's entries. -/
theorem rowSum_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_lastAxis h p k))

/-- The vector unit's maximum of a matrix over its last axis, at row `p`: the fold of `max` over the row's entries,
    from the accumulator's value. -/
theorem rowMax_apply {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f => (Finset.univ : Finset (Fin b)).fold max (Ideal.ofBits φ acc) f)
      (funext fun k => congrArg src (lift_lastAxis h p k)))

/-- The host's sum of a matrix over its last axis, at row `p`: the initial value plus the sum of the row's entries. -/
theorem hostRowSum_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduceAdd x init h' hu (ix1 p) = init (Shape.Idx.first hu) + ∑ k : Fin b, x (ix2 p k) :=
  (hostReduceAdd_apply x init h' hu (ix1 p)).trans
    ((Ideal.hostReduceAdd_single h' h x _ (ix1 p)).trans
      (congrArg (init (Shape.Idx.first hu) + ·) (Finset.sum_congr rfl fun k _ => congrArg x (lift_lastAxis h p k))))

/-- The host's maximum of a matrix over its last axis, at row `p`: the fold of `max` over the row's entries, from the
    initial value. -/
theorem hostRowMax_apply {φ : FTy} {a b : ℕ} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f => (Finset.univ : Finset (Fin b)).fold max (init (Shape.Idx.first hu)) f)
      (funext fun k => congrArg x (lift_lastAxis h p k)))

end Cert.LibRowwise

end
-- ==== Proof.Tiles.lean ====
/-
  What each kernel body computes from the blocks it loads, as a function of those blocks.

  The four bodies work on a band of 256 rows of the big matrix A (a 256 × 8192 block), on the whole 8192 × 128
  right factor B, and on small extras. On the extended reals a change of float format is the identity, and a
  matrix-unit product into a zero accumulator is the matrix product, so:

      filter body        diag(f-block) · (A-block · B)
      rectify-project    clampBelow 0 (A-block · B) · W
      plain product      A-block · B
-/
import proofs.«147948_j13383118094871_2_alg».proof.Proof.Gen.KernelIdeal.Skeleton
import proofs.«147948_j13383118094871_2_alg».proof.Proof.LibMatrixRows
import proofs.«147948_j13383118094871_2_alg».proof.Proof.LibMatmul2d
import proofs.«147948_j13383118094871_2_alg».proof.Proof.LibRowwise
import Idealize.ShloMosaic.Lib.Pipeline.Value

noncomputable section

namespace Cert.KernelIdeal.Tiles

open Idealize.ShloMosaic Idealize.ShloMosaic.ValueIdx Cert.KernelIdeal Cert.KernelIdeal.Gen Cert.LibMatrixRows
open scoped BigOperators

/-- The rectifier's threshold: the f32 word of zero, read on the extended reals (never evaluated: both
    programs carry the same word). -/
abbrev zeroWord : EReal := Ideal.ofBits .f32 0x00000000#32

/-- A 256 × 8192 block times the 8192 × 128 factor, at (r, c). -/
theorem band_times_apply (x0 : Vec Ideal S256x8192 .f32) (x1 : Vec Ideal S8192x128 .bf16) (r : Fin 256) (c : Fin 128) :
    matmul (F := Ideal) (φ₂ := .bf16) dot_S256x8192_S8192x128_S256x128_1_0_0_1_n_n none (truncf .bf16 x0 bitsLt_bf16_f32)
        (shapeCast S8192x128 x1 shapeCasts_S8192x128_S8192x128) (constant S256x128 .f32 0x00000000#32) (ix2 r c)
      = times (M := 256) (K := 8192) (N := 128) x0 x1 (ix2 r c) := by
  rw [shapeCast_self]
  exact Cert.LibMatmul2d.matmul_plain_apply (M := 256) (K := 8192) (N := 128) (truncf .bf16 x0 bitsLt_bf16_f32) x1 r c

/-- The filter body (first and third kernels): each row of the band's product scaled by that row's filter entry. -/
theorem filter0_eq (x0 : Vec Ideal S256x8192 .f32) (x1 : Vec Ideal S8192x128 .bf16) (x2 : Vec Ideal S256x1 .f32) :
    k0_pay1 (F := Ideal) x0 x1 x2 = scaleRows (M := 256) (N := 128) x2 (times (K := 8192) x0 x1) := by
  funext j
  obtain ⟨r, c, rfl⟩ : ∃ (r : Fin 256) (c : Fin 128), j = ix2 r c := ⟨j 0, j 1, eq_ix2 j⟩
  have hb : broadcastTo S256x128 (shapeCast S256x1 x2 shapeCasts_S256x1_S256x1) broadcasts_S256x1_S256x128 (ix2 r c)
      = x2 (ix2 r (0 : Fin 1)) := by
    rw [shapeCast_self]
    exact Cert.LibRowwise.broadcastTo_a1_ab_apply (a := 256) (b := 128) x2 broadcasts_S256x1_S256x128 r c
  exact congrArg₂ (· * ·) hb (band_times_apply x0 x1 r c)

theorem filter2_eq (x0 : Vec Ideal S256x8192 .f32) (x1 : Vec Ideal S8192x128 .bf16) (x2 : Vec Ideal S256x1 .f32) :
    k2_pay1 (F := Ideal) x0 x1 x2 = scaleRows (M := 256) (N := 128) x2 (times (K := 8192) x0 x1) := by
  funext j
  obtain ⟨r, c, rfl⟩ : ∃ (r : Fin 256) (c : Fin 128), j = ix2 r c := ⟨j 0, j 1, eq_ix2 j⟩
  have hb : broadcastTo S256x128 (shapeCast S256x1 x2 shapeCasts_S256x1_S256x1) broadcasts_S256x1_S256x128 (ix2 r c)
      = x2 (ix2 r (0 : Fin 1)) := by
    rw [shapeCast_self]
    exact Cert.LibRowwise.broadcastTo_a1_ab_apply (a := 256) (b := 128) x2 broadcasts_S256x1_S256x128 r c
  exact congrArg₂ (· * ·) hb (band_times_apply x0 x1 r c)

/-- A 256 × 128 block times the small 128 × 128 factor, at (r, c). -/
theorem small_times_apply (y : FVec Ideal S256x128 .bf16) (x2 : Vec Ideal S128x128 .bf16) (r : Fin 256) (c : Fin 128) :
    matmul (F := Ideal) (φ₁ := .bf16) (φ₂ := .bf16) dot_S256x128_S128x128_S256x128_1_0_0_1_n_n none y
        (shapeCast S128x128 x2 shapeCasts_S128x128_S128x128) (constant S256x128 .f32 0x00000000#32) (ix2 r c)
      = times (M := 256) (K := 128) (N := 128) y x2 (ix2 r c) := by
  rw [shapeCast_self]
  exact Cert.LibMatmul2d.matmul_plain_apply (M := 256) (K := 128) (N := 128) (φ₁ := .bf16) (φ₂ := .bf16) y x2 r c

/-- The rectify-and-project body (second kernel): the band's product clamped below at zero, times the small
    128 × 128 factor. -/
theorem rectify1_eq (x0 : Vec Ideal S256x8192 .f32) (x1 : Vec Ideal S8192x128 .bf16) (x2 : Vec Ideal S128x128 .bf16) :
    k1_pay1 (F := Ideal) x0 x1 x2
      = times (M := 256) (K := 128) (N := 128) (clampBelow zeroWord (times (K := 8192) x0 x1)) x2 := by
  funext j
  obtain ⟨r, c, rfl⟩ : ∃ (r : Fin 256) (c : Fin 128), j = ix2 r c := ⟨j 0, j 1, eq_ix2 j⟩
  unfold k1_pay1
  refine (small_times_apply _ x2 r c).trans ?_
  show ∑ l : Fin 128, _ * _ = ∑ l : Fin 128, _ * _
  refine Finset.sum_congr rfl fun l _ => ?_
  exact congrArg (· * x2 (ix2 l c)) (congrArg (max · zeroWord) (band_times_apply x0 x1 r l))

/-- The plain product body (fourth kernel). -/
theorem product3_eq (x0 : Vec Ideal S256x8192 .f32) (x1 : Vec Ideal S8192x128 .bf16) :
    k3_pay1 (F := Ideal) x0 x1 = times (M := 256) (K := 8192) (N := 128) x0 x1 := by
  funext j
  obtain ⟨r, c, rfl⟩ : ∃ (r : Fin 256) (c : Fin 128), j = ix2 r c := ⟨j 0, j 1, eq_ix2 j⟩
  exact band_times_apply x0 x1 r c

end Cert.KernelIdeal.Tiles

end
-- ==== Proof.Filter0.lean ====
/-
  The first grid region (rows of Ψ⁻¹ times the projected features, filtered) as ONE function of the arrays it is
  entered with.

  The grid has 32 points. Point t works on the band of rows 256·t … 256·t + 255: it loads that band of the big
  matrix and of the filter column, the whole right factor, and writes the same band of the result. A band of
  rows of diag(f) · (A · B) is diag(band of f) · (band of A · B), so what point t writes is the band of the
  whole-array function, and the 32 bands cover the 8192 rows: row p lies in band p / 256.
-/
import proofs.«147948_j13383118094871_2_alg».proof.Proof.Gen.KernelIdeal.Frame
import proofs.«147948_j13383118094871_2_alg».proof.Proof.Tiles
import Idealize.ShloMosaic.Lib.Pipeline.Value

noncomputable section

namespace Cert.KernelIdeal.Filter0

open Idealize.ShloMosaic Idealize.ShloMosaic.TcCoe Idealize.ShloMosaic.ValueIdx Idealize.SL.Sem
open Cert.KernelIdeal Cert.KernelIdeal.Gen Cert.LibMatrixRows
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 32 points: the big matrix, the filter column and the result move
    down one band per point; the right factor stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row r of point t's band, as a row of the whole matrix. -/
def band (t : Fin cfg0.N) (r : Fin 256) : Fin 8192 :=
  ⟨t.val * 256 + r.val, by have := Nat.lt_of_lt_of_eq t.isLt N_0; have := r.isLt; omega⟩

theorem emb_A (t : Fin cfg0.N) (y : S256x8192.Idx) : ((cfg0.win 0).blk t).view.emb y = ix2 (band t (y 0)) (y 1) := by
  funext a; apply Fin.ext
  obtain ⟨e0, e1, -⟩ := idx_facts t
  match a with
  | ⟨0, _⟩ => show win0_0.index t (0 : Fin 2) * 256 + 1 * (y 0).val = t.val * 256 + (y 0).val; omega
  | ⟨1, _⟩ => show win0_0.index t (1 : Fin 2) * 8192 + 1 * (y 1).val = (y 1).val; omega

theorem emb_B (t : Fin cfg0.N) (y : S8192x128.Idx) : ((cfg0.win 1).blk t).view.emb y = y := by
  funext a; apply Fin.ext
  obtain ⟨-, -, e2, e3, -⟩ := idx_facts t
  match a with
  | ⟨0, _⟩ => show win0_1.index t (0 : Fin 2) * 8192 + 1 * (y 0).val = (y 0).val; omega
  | ⟨1, _⟩ => show win0_1.index t (1 : Fin 2) * 128 + 1 * (y 1).val = (y 1).val; omega

theorem emb_f (t : Fin cfg0.N) (y : S256x1.Idx) : ((cfg0.win 2).blk t).view.emb y = ix2 (band t (y 0)) (y 1) := by
  funext a; apply Fin.ext
  obtain ⟨-, -, -, -, e4, e5, -⟩ := idx_facts t
  match a with
  | ⟨0, _⟩ => show win0_2.index t (0 : Fin 2) * 256 + 1 * (y 0).val = t.val * 256 + (y 0).val; omega
  | ⟨1, _⟩ => show win0_2.index t (1 : Fin 2) * 1 + 1 * (y 1).val = (y 1).val; omega

theorem emb_out (t : Fin cfg0.N) (y : S256x128.Idx) : ((cfg0.win 3).blk t).view.emb y = ix2 (band t (y 0)) (y 1) := by
  funext a; apply Fin.ext
  obtain ⟨-, -, -, -, -, -, e6, e7⟩ := idx_facts t
  match a with
  | ⟨0, _⟩ => show win0_3.index t (0 : Fin 2) * 256 + 1 * (y 0).val = t.val * 256 + (y 0).val; omega
  | ⟨1, _⟩ => show win0_3.index t (1 : Fin 2) * 128 + 1 * (y 1).val = (y 1).val; omega

/-- The big matrix's block at point t is its band of rows. -/
theorem read_A (c : Dev nD) (t : Fin cfg0.N) : iblk0 V c 0 t = rows (band t) (V c main_arg2) := by
  funext y
  exact congrArg (V c main_arg2) (emb_A t y)

/-- The right factor's block is the whole factor. -/
theorem read_B (c : Dev nD) (t : Fin cfg0.N) : iblk0 V c 1 t = V c main_v1 := by
  funext y
  exact congrArg (V c main_v1) (emb_B t y)

/-- The filter column's block is its band of rows. -/
theorem read_f (c : Dev nD) (t : Fin cfg0.N) : iblk0 V c 2 t = rows (band t) (V c main_v2) := by
  funext y
  exact congrArg (V c main_v2) (emb_f t y)

/-- What point t writes back is its band of diag(f) · (A · B) of the arrays the region is entered with. -/
theorem flushed_eq (c : Dev nD) (t : Fin cfg0.N) :
    (dat0 V c).flushed 3 t
      = ((cfg0.win 3).blk t).view.read (Elt Ideal) (scaleRows (V c main_v2) (times (V c main_arg2) (V c main_v1))) := by
  show (cfg0.win 3).cut (grid0.coords t) ((dat0 V c).after 3 t) = _
  rw [after0_3]
  unfold out0_3
  rw [View.canon_unit_zero hz]
  simp only [View.ld_unit_zero (S := S256x8192) hz, View.ld_unit_zero (S := S8192x128) hz, View.ld_unit_zero (S := S256x1) hz]
  rw [Tiles.filter0_eq, read_A V c t, read_B V c t, read_f V c t]
  funext j
  show scaleRows (rows (band t) (V c main_v2)) (times (rows (band t) (V c main_arg2)) (V c main_v1)) j
    = scaleRows (V c main_v2) (times (V c main_arg2) (V c main_v1)) (((cfg0.win 3).blk t).view.emb j)
  rw [emb_out t j]
  rfl

/-- An index of the result lies in point t's block iff each coordinate lies in the block's range. -/
theorem mem_blk (t : Fin cfg0.N) (i : S8192x128.Idx) :
    i ∈ ((cfg0.win 3).blk t).view.set ↔ ∀ a : Fin 2, win0_3.index t a * S256x128.size a ≤ (i a).val ∧ (i a).val < win0_3.index t a * S256x128.size a + S256x128.size a := by
  show i ∈ ((View.whole main_v3).slice (win0_3.rect t)).set ↔ _
  rw [View.set_slice_whole, Rect.mem_set_unit]
  exact Iff.rfl

/-- Every row lies in some point's band: row p in band p / 256. -/
theorem cover (i : S8192x128.Idx) : ∃ t : Fin cfg0.N, (cfg0.win 3).flush t = true ∧ i ∈ ((cfg0.win 3).blk t).view.set := by
  have hi0 : (i 0).val < 8192 := (i 0).isLt
  have hi1 : (i 1).val < 128 := (i 1).isLt
  obtain ⟨t, ht⟩ : ∃ t : Fin cfg0.N, t.val = (i 0).val / 256 :=
    ⟨⟨(i 0).val / 256, Nat.lt_of_lt_of_eq (by omega : (i 0).val / 256 < 32) N_0.symm⟩, rfl⟩
  obtain ⟨-, -, -, -, -, -, e6, e7⟩ := idx_facts t
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 128 ≤ (i 1).val ∧ (i 1).val < win0_3.index t (1 : Fin 2) * 128 + 128; omega

/-- The result array after the region: diag(f) · (A · B) of the arrays it was entered with. -/
theorem final (c : Dev nD) :
    (dat0 V c).arrAt 3 cfg0.N = scaleRows (V c main_v2) (times (V c main_arg2) (V c main_v1)) :=
  (dat0 V c).arrAt_eq_of_cover 3 _ (fun t _ => flushed_eq V c t) cover

end Cert.KernelIdeal.Filter0

end
-- ==== Proof.Rectify1.lean ====
/-
  The second grid region (rows of Ψ times the filtered spectrum, rectified, then projected by the small
  128 × 128 factor) as ONE function of the arrays it is entered with.

  Point t works on the band of rows 256·t … 256·t + 255 of the big matrix and writes the same band of the
  result; the two right factors are loaded whole. Clamping and the small product act row by row, so a band of
  rows of  clampBelow 0 (A · B) · W  is  clampBelow 0 (band of A · B) · W.
-/
import proofs.«147948_j13383118094871_2_alg».proof.Proof.Gen.KernelIdeal.Frame
import proofs.«147948_j13383118094871_2_alg».proof.Proof.Tiles
import Idealize.ShloMosaic.Lib.Pipeline.Value

noncomputable section

namespace Cert.KernelIdeal.Rectify1

open Idealize.ShloMosaic Idealize.ShloMosaic.TcCoe Idealize.ShloMosaic.ValueIdx Idealize.SL.Sem
open Cert.KernelIdeal Cert.KernelIdeal.Gen Cert.LibMatrixRows
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 32 points: the big matrix and the result move down one band per
    point; the two right factors stay. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row r of point t's band, as a row of the whole matrix. -/
def band (t : Fin cfg1.N) (r : Fin 256) : Fin 8192 :=
  ⟨t.val * 256 + r.val, by have := Nat.lt_of_lt_of_eq t.isLt N_1; have := r.isLt; omega⟩

theorem emb_A (t : Fin cfg1.N) (y : S256x8192.Idx) : ((cfg1.win 0).blk t).view.emb y = ix2 (band t (y 0)) (y 1) := by
  funext a; apply Fin.ext
  obtain ⟨e0, e1, -⟩ := idx_facts t
  match a with
  | ⟨0, _⟩ => show win1_0.index t (0 : Fin 2) * 256 + 1 * (y 0).val = t.val * 256 + (y 0).val; omega
  | ⟨1, _⟩ => show win1_0.index t (1 : Fin 2) * 8192 + 1 * (y 1).val = (y 1).val; omega

theorem emb_B (t : Fin cfg1.N) (y : S8192x128.Idx) : ((cfg1.win 1).blk t).view.emb y = y := by
  funext a; apply Fin.ext
  obtain ⟨-, -, e2, e3, -⟩ := idx_facts t
  match a with
  | ⟨0, _⟩ => show win1_1.index t (0 : Fin 2) * 8192 + 1 * (y 0).val = (y 0).val; omega
  | ⟨1, _⟩ => show win1_1.index t (1 : Fin 2) * 128 + 1 * (y 1).val = (y 1).val; omega

theorem emb_W (t : Fin cfg1.N) (y : S128x128.Idx) : ((cfg1.win 2).blk t).view.emb y = y := by
  funext a; apply Fin.ext
  obtain ⟨-, -, -, -, e4, e5, -⟩ := idx_facts t
  match a with
  | ⟨0, _⟩ => show win1_2.index t (0 : Fin 2) * 128 + 1 * (y 0).val = (y 0).val; omega
  | ⟨1, _⟩ => show win1_2.index t (1 : Fin 2) * 128 + 1 * (y 1).val = (y 1).val; omega

theorem emb_out (t : Fin cfg1.N) (y : S256x128.Idx) : ((cfg1.win 3).blk t).view.emb y = ix2 (band t (y 0)) (y 1) := by
  funext a; apply Fin.ext
  obtain ⟨-, -, -, -, -, -, e6, e7⟩ := idx_facts t
  match a with
  | ⟨0, _⟩ => show win1_3.index t (0 : Fin 2) * 256 + 1 * (y 0).val = t.val * 256 + (y 0).val; omega
  | ⟨1, _⟩ => show win1_3.index t (1 : Fin 2) * 128 + 1 * (y 1).val = (y 1).val; omega

/-- The big matrix's block at point t is its band of rows. -/
theorem read_A (c : Dev nD) (t : Fin cfg1.N) : iblk1 V c 0 t = rows (band t) (V c main_arg1) := by
  funext y
  exact congrArg (V c main_arg1) (emb_A t y)

/-- The filtered spectrum's block is the whole array. -/
theorem read_B (c : Dev nD) (t : Fin cfg1.N) : iblk1 V c 1 t = V c main_v3 := by
  funext y
  exact congrArg (V c main_v3) (emb_B t y)

/-- The small factor's block is the whole factor. -/
theorem read_W (c : Dev nD) (t : Fin cfg1.N) : iblk1 V c 2 t = V c main_v4 := by
  funext y
  exact congrArg (V c main_v4) (emb_W t y)

/-- What point t writes back is its band of clampBelow 0 (A · B) · W of the arrays the region is entered with. -/
theorem flushed_eq (c : Dev nD) (t : Fin cfg1.N) :
    (dat1 V c).flushed 3 t
      = ((cfg1.win 3).blk t).view.read (Elt Ideal)
          (times (clampBelow Tiles.zeroWord (times (V c main_arg1) (V c main_v3))) (V c main_v4)) := by
  show (cfg1.win 3).cut (grid1.coords t) ((dat1 V c).after 3 t) = _
  rw [after1_3]
  unfold out1_3
  rw [View.canon_unit_zero hz]
  simp only [View.ld_unit_zero (S := S256x8192) hz, View.ld_unit_zero (S := S8192x128) hz, View.ld_unit_zero (S := S128x128) hz]
  rw [Tiles.rectify1_eq, read_A V c t, read_B V c t, read_W V c t]
  funext j
  show times (clampBelow Tiles.zeroWord (times (rows (band t) (V c main_arg1)) (V c main_v3))) (V c main_v4) j
    = times (clampBelow Tiles.zeroWord (times (V c main_arg1) (V c main_v3))) (V c main_v4) (((cfg1.win 3).blk t).view.emb j)
  rw [emb_out t j]
  rfl

/-- An index of the result lies in point t's block iff each coordinate lies in the block's range. -/
theorem mem_blk (t : Fin cfg1.N) (i : S8192x128.Idx) :
    i ∈ ((cfg1.win 3).blk t).view.set ↔ ∀ a : Fin 2, win1_3.index t a * S256x128.size a ≤ (i a).val ∧ (i a).val < win1_3.index t a * S256x128.size a + S256x128.size a := by
  show i ∈ ((View.whole main_v5).slice (win1_3.rect t)).set ↔ _
  rw [View.set_slice_whole, Rect.mem_set_unit]
  exact Iff.rfl

/-- Every row lies in some point's band: row p in band p / 256. -/
theorem cover (i : S8192x128.Idx) : ∃ t : Fin cfg1.N, (cfg1.win 3).flush t = true ∧ i ∈ ((cfg1.win 3).blk t).view.set := by
  have hi0 : (i 0).val < 8192 := (i 0).isLt
  have hi1 : (i 1).val < 128 := (i 1).isLt
  obtain ⟨t, ht⟩ : ∃ t : Fin cfg1.N, t.val = (i 0).val / 256 :=
    ⟨⟨(i 0).val / 256, Nat.lt_of_lt_of_eq (by omega : (i 0).val / 256 < 32) N_1.symm⟩, rfl⟩
  obtain ⟨-, -, -, -, -, -, e6, e7⟩ := idx_facts t
  refine ⟨t, flush1_3 t, ?_⟩
  rw [mem_blk]
  intro a
  match a with
  | ⟨0, _⟩ => show win1_3.index t (0 : Fin 2) * 256 ≤ (i 0).val ∧ (i 0).val < win1_3.index t (0 : Fin 2) * 256 + 256; omega
  | ⟨1, _⟩ => show win1_3.index t (1 : Fin 2) * 128 ≤ (i 1).val ∧ (i 1).val < win1_3.index t (1 : Fin 2) * 128 + 128; omega

/-- The result array after the region: clampBelow 0 (A · B) · W of the arrays it was entered with. -/
theorem final (c : Dev nD) :
    (dat1 V c).arrAt 3 cfg1.N = times (clampBelow Tiles.zeroWord (times (V c main_arg1) (V c main_v3))) (V c main_v4) :=
  (dat1 V c).arrAt_eq_of_cover 3 _ (fun t _ => flushed_eq V c t) cover

end Cert.KernelIdeal.Rectify1

end
-- ==== Proof.Filter2.lean ====
/-
  The third grid region (rows of Ψ⁻¹ times the second layer's projected features, filtered) as ONE function of the arrays it is
  entered with.

  The grid has 32 points. Point t works on the band of rows 256·t … 256·t + 255: it loads that band of the big
  matrix and of the filter column, the whole right factor, and writes the same band of the result. A band of
  rows of diag(f) · (A · B) is diag(band of f) · (band of A · B), so what point t writes is the band of the
  whole-array function, and the 32 bands cover the 8192 rows: row p lies in band p / 256.
-/
import proofs.«147948_j13383118094871_2_alg».proof.Proof.Gen.KernelIdeal.Frame
import proofs.«147948_j13383118094871_2_alg».proof.Proof.Tiles
import Idealize.ShloMosaic.Lib.Pipeline.Value

noncomputable section

namespace Cert.KernelIdeal.Filter2

open Idealize.ShloMosaic Idealize.ShloMosaic.TcCoe Idealize.ShloMosaic.ValueIdx Idealize.SL.Sem
open Cert.KernelIdeal Cert.KernelIdeal.Gen Cert.LibMatrixRows
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 32 points: the big matrix, the filter column and the result move
    down one band per point; the right factor stays. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Row r of point t's band, as a row of the whole matrix. -/
def band (t : Fin cfg2.N) (r : Fin 256) : Fin 8192 :=
  ⟨t.val * 256 + r.val, by have := Nat.lt_of_lt_of_eq t.isLt N_2; have := r.isLt; omega⟩

theorem emb_A (t : Fin cfg2.N) (y : S256x8192.Idx) : ((cfg2.win 0).blk t).view.emb y = ix2 (band t (y 0)) (y 1) := by
  funext a; apply Fin.ext
  obtain ⟨e0, e1, -⟩ := idx_facts t
  match a with
  | ⟨0, _⟩ => show win2_0.index t (0 : Fin 2) * 256 + 1 * (y 0).val = t.val * 256 + (y 0).val; omega
  | ⟨1, _⟩ => show win2_0.index t (1 : Fin 2) * 8192 + 1 * (y 1).val = (y 1).val; omega

theorem emb_B (t : Fin cfg2.N) (y : S8192x128.Idx) : ((cfg2.win 1).blk t).view.emb y = y := by
  funext a; apply Fin.ext
  obtain ⟨-, -, e2, e3, -⟩ := idx_facts t
  match a with
  | ⟨0, _⟩ => show win2_1.index t (0 : Fin 2) * 8192 + 1 * (y 0).val = (y 0).val; omega
  | ⟨1, _⟩ => show win2_1.index t (1 : Fin 2) * 128 + 1 * (y 1).val = (y 1).val; omega

theorem emb_f (t : Fin cfg2.N) (y : S256x1.Idx) : ((cfg2.win 2).blk t).view.emb y = ix2 (band t (y 0)) (y 1) := by
  funext a; apply Fin.ext
  obtain ⟨-, -, -, -, e4, e5, -⟩ := idx_facts t
  match a with
  | ⟨0, _⟩ => show win2_2.index t (0 : Fin 2) * 256 + 1 * (y 0).val = t.val * 256 + (y 0).val; omega
  | ⟨1, _⟩ => show win2_2.index t (1 : Fin 2) * 1 + 1 * (y 1).val = (y 1).val; omega

theorem emb_out (t : Fin cfg2.N) (y : S256x128.Idx) : ((cfg2.win 3).blk t).view.emb y = ix2 (band t (y 0)) (y 1) := by
  funext a; apply Fin.ext
  obtain ⟨-, -, -, -, -, -, e6, e7⟩ := idx_facts t
  match a with
  | ⟨0, _⟩ => show win2_3.index t (0 : Fin 2) * 256 + 1 * (y 0).val = t.val * 256 + (y 0).val; omega
  | ⟨1, _⟩ => show win2_3.index t (1 : Fin 2) * 128 + 1 * (y 1).val = (y 1).val; omega

/-- The big matrix's block at point t is its band of rows. -/
theorem read_A (c : Dev nD) (t : Fin cfg2.N) : iblk2 V c 0 t = rows (band t) (V c main_arg2) := by
  funext y
  exact congrArg (V c main_arg2) (emb_A t y)

/-- The right factor's block is the whole factor. -/
theorem read_B (c : Dev nD) (t : Fin cfg2.N) : iblk2 V c 1 t = V c main_v5 := by
  funext y
  exact congrArg (V c main_v5) (emb_B t y)

/-- The filter column's block is its band of rows. -/
theorem read_f (c : Dev nD) (t : Fin cfg2.N) : iblk2 V c 2 t = rows (band t) (V c main_v6) := by
  funext y
  exact congrArg (V c main_v6) (emb_f t y)

/-- What point t writes back is its band of diag(f) · (A · B) of the arrays the region is entered with. -/
theorem flushed_eq (c : Dev nD) (t : Fin cfg2.N) :
    (dat2 V c).flushed 3 t
      = ((cfg2.win 3).blk t).view.read (Elt Ideal) (scaleRows (V c main_v6) (times (V c main_arg2) (V c main_v5))) := by
  show (cfg2.win 3).cut (grid2.coords t) ((dat2 V c).after 3 t) = _
  rw [after2_3]
  unfold out2_3
  rw [View.canon_unit_zero hz]
  simp only [View.ld_unit_zero (S := S256x8192) hz, View.ld_unit_zero (S := S8192x128) hz, View.ld_unit_zero (S := S256x1) hz]
  rw [Tiles.filter2_eq, read_A V c t, read_B V c t, read_f V c t]
  funext j
  show scaleRows (rows (band t) (V c main_v6)) (times (rows (band t) (V c main_arg2)) (V c main_v5)) j
    = scaleRows (V c main_v6) (times (V c main_arg2) (V c main_v5)) (((cfg2.win 3).blk t).view.emb j)
  rw [emb_out t j]
  rfl

/-- An index of the result lies in point t's block iff each coordinate lies in the block's range. -/
theorem mem_blk (t : Fin cfg2.N) (i : S8192x128.Idx) :
    i ∈ ((cfg2.win 3).blk t).view.set ↔ ∀ a : Fin 2, win2_3.index t a * S256x128.size a ≤ (i a).val ∧ (i a).val < win2_3.index t a * S256x128.size a + S256x128.size a := by
  show i ∈ ((View.whole main_v7).slice (win2_3.rect t)).set ↔ _
  rw [View.set_slice_whole, Rect.mem_set_unit]
  exact Iff.rfl

/-- Every row lies in some point's band: row p in band p / 256. -/
theorem cover (i : S8192x128.Idx) : ∃ t : Fin cfg2.N, (cfg2.win 3).flush t = true ∧ i ∈ ((cfg2.win 3).blk t).view.set := by
  have hi0 : (i 0).val < 8192 := (i 0).isLt
  have hi1 : (i 1).val < 128 := (i 1).isLt
  obtain ⟨t, ht⟩ : ∃ t : Fin cfg2.N, t.val = (i 0).val / 256 :=
    ⟨⟨(i 0).val / 256, Nat.lt_of_lt_of_eq (by omega : (i 0).val / 256 < 32) N_2.symm⟩, rfl⟩
  obtain ⟨-, -, -, -, -, -, e6, e7⟩ := idx_facts t
  refine ⟨t, flush2_3 t, ?_⟩
  rw [mem_blk]
  intro a
  match a with
  | ⟨0, _⟩ => show win2_3.index t (0 : Fin 2) * 256 ≤ (i 0).val ∧ (i 0).val < win2_3.index t (0 : Fin 2) * 256 + 256; omega
  | ⟨1, _⟩ => show win2_3.index t (1 : Fin 2) * 128 ≤ (i 1).val ∧ (i 1).val < win2_3.index t (1 : Fin 2) * 128 + 128; omega

/-- The result array after the region: diag(f) · (A · B) of the arrays it was entered with. -/
theorem final (c : Dev nD) :
    (dat2 V c).arrAt 3 cfg2.N = scaleRows (V c main_v6) (times (V c main_arg2) (V c main_v5)) :=
  (dat2 V c).arrAt_eq_of_cover 3 _ (fun t _ => flushed_eq V c t) cover

end Cert.KernelIdeal.Filter2

end
-- ==== Proof.Product3.lean ====
/-
  The fourth grid region (rows of Ψ times the second layer's filtered spectrum) as ONE function of the arrays
  it is entered with.

  Point t works on the band of rows 256·t … 256·t + 255 of the big matrix and writes the same band of the
  result; the right factor is loaded whole. A band of rows of A · B is (band of A) · B.
-/
import proofs.«147948_j13383118094871_2_alg».proof.Proof.Gen.KernelIdeal.Frame
import proofs.«147948_j13383118094871_2_alg».proof.Proof.Tiles
import Idealize.ShloMosaic.Lib.Pipeline.Value

noncomputable section

namespace Cert.KernelIdeal.Product3

open Idealize.ShloMosaic Idealize.ShloMosaic.TcCoe Idealize.ShloMosaic.ValueIdx Idealize.SL.Sem
open Cert.KernelIdeal Cert.KernelIdeal.Gen Cert.LibMatrixRows
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the 32 points: the big matrix and the result move down one band per
    point; the right factor stays. -/
theorem idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row r of point t's band, as a row of the whole matrix. -/
def band (t : Fin cfg3.N) (r : Fin 256) : Fin 8192 :=
  ⟨t.val * 256 + r.val, by have := Nat.lt_of_lt_of_eq t.isLt N_3; have := r.isLt; omega⟩

theorem emb_A (t : Fin cfg3.N) (y : S256x8192.Idx) : ((cfg3.win 0).blk t).view.emb y = ix2 (band t (y 0)) (y 1) := by
  funext a; apply Fin.ext
  obtain ⟨e0, e1, -⟩ := idx_facts t
  match a with
  | ⟨0, _⟩ => show win3_0.index t (0 : Fin 2) * 256 + 1 * (y 0).val = t.val * 256 + (y 0).val; omega
  | ⟨1, _⟩ => show win3_0.index t (1 : Fin 2) * 8192 + 1 * (y 1).val = (y 1).val; omega

theorem emb_B (t : Fin cfg3.N) (y : S8192x128.Idx) : ((cfg3.win 1).blk t).view.emb y = y := by
  funext a; apply Fin.ext
  obtain ⟨-, -, e2, e3, -⟩ := idx_facts t
  match a with
  | ⟨0, _⟩ => show win3_1.index t (0 : Fin 2) * 8192 + 1 * (y 0).val = (y 0).val; omega
  | ⟨1, _⟩ => show win3_1.index t (1 : Fin 2) * 128 + 1 * (y 1).val = (y 1).val; omega

theorem emb_out (t : Fin cfg3.N) (y : S256x128.Idx) : ((cfg3.win 2).blk t).view.emb y = ix2 (band t (y 0)) (y 1) := by
  funext a; apply Fin.ext
  obtain ⟨-, -, -, -, e4, e5⟩ := idx_facts t
  match a with
  | ⟨0, _⟩ => show win3_2.index t (0 : Fin 2) * 256 + 1 * (y 0).val = t.val * 256 + (y 0).val; omega
  | ⟨1, _⟩ => show win3_2.index t (1 : Fin 2) * 128 + 1 * (y 1).val = (y 1).val; omega

/-- The big matrix's block at point t is its band of rows. -/
theorem read_A (c : Dev nD) (t : Fin cfg3.N) : iblk3 V c 0 t = rows (band t) (V c main_arg1) := by
  funext y
  exact congrArg (V c main_arg1) (emb_A t y)

/-- The right factor's block is the whole factor. -/
theorem read_B (c : Dev nD) (t : Fin cfg3.N) : iblk3 V c 1 t = V c main_v7 := by
  funext y
  exact congrArg (V c main_v7) (emb_B t y)

/-- What point t writes back is its band of A · B of the arrays the region is entered with. -/
theorem flushed_eq (c : Dev nD) (t : Fin cfg3.N) :
    (dat3 V c).flushed 2 t
      = ((cfg3.win 2).blk t).view.read (Elt Ideal) (times (V c main_arg1) (V c main_v7)) := by
  show (cfg3.win 2).cut (grid3.coords t) ((dat3 V c).after 2 t) = _
  rw [after3_2]
  unfold out3_2
  rw [View.canon_unit_zero hz]
  simp only [View.ld_unit_zero (S := S256x8192) hz, View.ld_unit_zero (S := S8192x128) hz]
  rw [Tiles.product3_eq, read_A V c t, read_B V c t]
  funext j
  show times (rows (band t) (V c main_arg1)) (V c main_v7) j
    = times (V c main_arg1) (V c main_v7) (((cfg3.win 2).blk t).view.emb j)
  rw [emb_out t j]
  rfl

/-- An index of the result lies in point t's block iff each coordinate lies in the block's range. -/
theorem mem_blk (t : Fin cfg3.N) (i : S8192x128.Idx) :
    i ∈ ((cfg3.win 2).blk t).view.set ↔ ∀ a : Fin 2, win3_2.index t a * S256x128.size a ≤ (i a).val ∧ (i a).val < win3_2.index t a * S256x128.size a + S256x128.size a := by
  show i ∈ ((View.whole main_v8).slice (win3_2.rect t)).set ↔ _
  rw [View.set_slice_whole, Rect.mem_set_unit]
  exact Iff.rfl

/-- Every row lies in some point's band: row p in band p / 256. -/
theorem cover (i : S8192x128.Idx) : ∃ t : Fin cfg3.N, (cfg3.win 2).flush t = true ∧ i ∈ ((cfg3.win 2).blk t).view.set := by
  have hi0 : (i 0).val < 8192 := (i 0).isLt
  have hi1 : (i 1).val < 128 := (i 1).isLt
  obtain ⟨t, ht⟩ : ∃ t : Fin cfg3.N, t.val = (i 0).val / 256 :=
    ⟨⟨(i 0).val / 256, Nat.lt_of_lt_of_eq (by omega : (i 0).val / 256 < 32) N_3.symm⟩, rfl⟩
  obtain ⟨-, -, -, -, e4, e5⟩ := idx_facts t
  refine ⟨t, flush3_2 t, ?_⟩
  rw [mem_blk]
  intro a
  match a with
  | ⟨0, _⟩ => show win3_2.index t (0 : Fin 2) * 256 ≤ (i 0).val ∧ (i 0).val < win3_2.index t (0 : Fin 2) * 256 + 256; omega
  | ⟨1, _⟩ => show win3_2.index t (1 : Fin 2) * 128 ≤ (i 1).val ∧ (i 1).val < win3_2.index t (1 : Fin 2) * 128 + 128; omega

/-- The result array after the region: A · B of the arrays it was entered with. -/
theorem final (c : Dev nD) : (dat3 V c).arrAt 2 cfg3.N = times (V c main_arg1) (V c main_v7) :=
  (dat3 V c).arrAt_eq_of_cover 2 _ (fun t _ => flushed_eq V c t) cover

end Cert.KernelIdeal.Product3

end
-- ==== Proof.Chain.lean ====
/-
  The idealized kernel program's result, followed through its seven segments.

  Writing X, Ψ, Ψ⁻¹, W₁, f₁, W₂, f₂ for the seven argument arrays as launched:

      the host computes          X · W₁  and lays f₁ out as a column
      the first region leaves    S₁ = diag(f₁) · (Ψ⁻¹ · (X · W₁))
      the second region leaves   P  = clampBelow 0 (Ψ · S₁) · W₂
      the host lays f₂ out as a column
      the third region leaves    S₂ = diag(f₂) · (Ψ⁻¹ · P)
      the fourth region leaves   Ψ · S₂

  No segment writes an argument array, so each region finds Ψ or Ψ⁻¹ as launched; the intermediate arrays are
  each written once and read by the next region. The changes to the narrower float format between the regions
  are the identity on the extended reals.
-/
import proofs.«147948_j13383118094871_2_alg».proof.Proof.Filter0
import proofs.«147948_j13383118094871_2_alg».proof.Proof.Rectify1
import proofs.«147948_j13383118094871_2_alg».proof.Proof.Filter2
import proofs.«147948_j13383118094871_2_alg».proof.Proof.Product3
import Idealize.ShloMosaic.Lib.KernelVsHost
import Idealize.ShloMosaic.Lib.StableHlo.Run

noncomputable section

namespace Cert.KernelIdeal.Chain

open Idealize.ShloMosaic Idealize.ShloMosaic.TcCoe Idealize.ShloMosaic.ValueIdx Idealize.SL.Sem Idealize.ShloMosaic.StableHlo
open Cert.KernelIdeal Cert.KernelIdeal.Gen Cert.LibMatrixRows

variable (m : (ℓ : Loc nD τ sig) → Buf (Elt Ideal) ℓ) (ρ : Dev nD → PrngReg) (c : Dev nD)

/-- The host's product of the features with the first projection, on the extended reals, whatever the
    precision it is asked for. -/
theorem hostTimes (x : Mat 8192 128) (y : Mat 128 128) :
    Host.dotGeneral (F := Ideal) (φ₁ := .f32) (φ₂ := .f32) dot_S8192x128_S128x128_S8192x128_1_0_0_1_n_n (some .fp32) x y = times x y := by
  rw [← matmul_zero_eq_dotGeneral]
  funext i
  obtain ⟨p, q, rfl⟩ : ∃ (p : Fin 8192) (q : Fin 128), i = ix2 p q := ⟨i 0, i 1, eq_ix2 i⟩
  exact Cert.LibMatmul2d.matmul_plain_apply (M := 8192) (K := 128) (N := 128) (φ₁ := .f32) (φ₂ := .f32) x y p q

/-- A vector reshaped to one column is that vector as a column. -/
theorem reshapeColumn (x : Vect 8192) : shapeCast S8192x1 x shapeCasts_S8192_S8192x1 = column x := by
  funext i
  obtain ⟨p, u, rfl⟩ : ∃ (p : Fin 8192) (u : Fin 1), i = ix2 p u := ⟨i 0, i 1, eq_ix2 i⟩
  exact Cert.LibRowwise.shapeCast_a_a1_apply (a := 8192) x shapeCasts_S8192_S8192x1 p u

/-! ## The argument arrays at the segment boundaries: as launched -/

theorem at1_arg1 : W1 m ρ c (Proc.devRef .tc main_arg1) = m ((c : Thread nD τ).loc main_arg1) := by
  show StableHlo.after hostOps0 (W0 m ρ c) (Proc.devRef .tc main_arg1) = _
  after_results
theorem at1_arg2 : W1 m ρ c (Proc.devRef .tc main_arg2) = m ((c : Thread nD τ).loc main_arg2) := by
  show StableHlo.after hostOps0 (W0 m ρ c) (Proc.devRef .tc main_arg2) = _
  after_results
theorem at1_arg5 : W1 m ρ c (Proc.devRef .tc main_arg5) = m ((c : Thread nD τ).loc main_arg5) := by
  show StableHlo.after hostOps0 (W0 m ρ c) (Proc.devRef .tc main_arg5) = _
  after_results
theorem at1_arg6 : W1 m ρ c (Proc.devRef .tc main_arg6) = m ((c : Thread nD τ).loc main_arg6) := by
  show StableHlo.after hostOps0 (W0 m ρ c) (Proc.devRef .tc main_arg6) = _
  after_results

theorem at2_arg1 : W2 m ρ c (Proc.devRef .tc main_arg1) = m ((c : Thread nD τ).loc main_arg1) :=
  (W2_of_ne m ρ c main_arg1 (by decide)).trans (at1_arg1 m ρ c)
theorem at2_arg2 : W2 m ρ c (Proc.devRef .tc main_arg2) = m ((c : Thread nD τ).loc main_arg2) :=
  ((W2_arr m ρ c 0).trans (((dat0 (V1 m ρ) c).arrAt_in 0 rfl _).trans (A_eq0 (V1 m ρ) c 0))).trans (at1_arg2 m ρ c)
theorem at2_arg5 : W2 m ρ c (Proc.devRef .tc main_arg5) = m ((c : Thread nD τ).loc main_arg5) :=
  (W2_of_ne m ρ c main_arg5 (by decide)).trans (at1_arg5 m ρ c)
theorem at2_arg6 : W2 m ρ c (Proc.devRef .tc main_arg6) = m ((c : Thread nD τ).loc main_arg6) :=
  (W2_of_ne m ρ c main_arg6 (by decide)).trans (at1_arg6 m ρ c)

theorem at3_arg1 : W3 m ρ c (Proc.devRef .tc main_arg1) = m ((c : Thread nD τ).loc main_arg1) := by
  show StableHlo.after hostOps1 (W2 m ρ c) (Proc.devRef .tc main_arg1) = _
  after_results
  exact at2_arg1 m ρ c
theorem at3_arg2 : W3 m ρ c (Proc.devRef .tc main_arg2) = m ((c : Thread nD τ).loc main_arg2) := by
  show StableHlo.after hostOps1 (W2 m ρ c) (Proc.devRef .tc main_arg2) = _
  after_results
  exact at2_arg2 m ρ c
theorem at3_arg6 : W3 m ρ c (Proc.devRef .tc main_arg6) = m ((c : Thread nD τ).loc main_arg6) := by
  show StableHlo.after hostOps1 (W2 m ρ c) (Proc.devRef .tc main_arg6) = _
  after_results
  exact at2_arg6 m ρ c

theorem at4_arg1 : W4 m ρ c (Proc.devRef .tc main_arg1) = m ((c : Thread nD τ).loc main_arg1) :=
  ((W4_arr m ρ c 0).trans (((dat1 (V3 m ρ) c).arrAt_in 0 rfl _).trans (A_eq1 (V3 m ρ) c 0))).trans (at3_arg1 m ρ c)
theorem at4_arg2 : W4 m ρ c (Proc.devRef .tc main_arg2) = m ((c : Thread nD τ).loc main_arg2) :=
  (W4_of_ne m ρ c main_arg2 (by decide)).trans (at3_arg2 m ρ c)
theorem at4_arg6 : W4 m ρ c (Proc.devRef .tc main_arg6) = m ((c : Thread nD τ).loc main_arg6) :=
  (W4_of_ne m ρ c main_arg6 (by decide)).trans (at3_arg6 m ρ c)

theorem at5_arg1 : W5 m ρ c (Proc.devRef .tc main_arg1) = m ((c : Thread nD τ).loc main_arg1) := by
  show StableHlo.after hostOps2 (W4 m ρ c) (Proc.devRef .tc main_arg1) = _
  after_results
  exact at4_arg1 m ρ c
theorem at5_arg2 : W5 m ρ c (Proc.devRef .tc main_arg2) = m ((c : Thread nD τ).loc main_arg2) := by
  show StableHlo.after hostOps2 (W4 m ρ c) (Proc.devRef .tc main_arg2) = _
  after_results
  exact at4_arg2 m ρ c

theorem at6_arg1 : W6 m ρ c (Proc.devRef .tc main_arg1) = m ((c : Thread nD τ).loc main_arg1) :=
  (W6_of_ne m ρ c main_arg1 (by decide)).trans (at5_arg1 m ρ c)

/-! ## The first region -/

/-- The right factor it is entered with: X · W₁. -/
theorem in0_B : V1 m ρ c main_v1 = times (m ((c : Thread nD τ).loc main_arg0)) (m ((c : Thread nD τ).loc main_arg3)) := by
  show StableHlo.after hostOps0 (W0 m ρ c) (Proc.devRef .tc main_v1) = _
  after_results
  exact hostTimes _ _

/-- The filter it is entered with: f₁ as a column. -/
theorem in0_f : V1 m ρ c main_v2 = column (m ((c : Thread nD τ).loc main_arg4)) := by
  show StableHlo.after hostOps0 (W0 m ρ c) (Proc.devRef .tc main_v2) = _
  after_results
  exact reshapeColumn _

/-- What it leaves: S₁ = diag(f₁) · (Ψ⁻¹ · (X · W₁)). -/
theorem out0 : W2 m ρ c (Proc.devRef .tc main_v3)
    = scaleRows (column (m ((c : Thread nD τ).loc main_arg4)))
        (times (m ((c : Thread nD τ).loc main_arg2)) (times (m ((c : Thread nD τ).loc main_arg0)) (m ((c : Thread nD τ).loc main_arg3)))) := by
  refine ((W2_arr m ρ c 3).trans (Filter0.final (V1 m ρ) c)).trans ?_
  rw [in0_B m ρ c, in0_f m ρ c, show V1 m ρ c main_arg2 = m ((c : Thread nD τ).loc main_arg2) from at1_arg2 m ρ c]

/-! ## The second region -/

/-- The small factor it is entered with: W₂. -/
theorem in1_W : V3 m ρ c main_v4 = m ((c : Thread nD τ).loc main_arg5) := by
  show StableHlo.after hostOps1 (W2 m ρ c) (Proc.devRef .tc main_v4) = _
  after_results
  rw [at2_arg5 m ρ c]
  rfl

/-- The spectrum it is entered with: what the first region left. -/
theorem in1_B : V3 m ρ c main_v3 = W2 m ρ c (Proc.devRef .tc main_v3) := by
  show StableHlo.after hostOps1 (W2 m ρ c) (Proc.devRef .tc main_v3) = _
  after_results

/-- What it leaves: P = clampBelow 0 (Ψ · S₁) · W₂. -/
theorem out1 : W4 m ρ c (Proc.devRef .tc main_v5)
    = times (clampBelow Tiles.zeroWord (times (m ((c : Thread nD τ).loc main_arg1))
        (scaleRows (column (m ((c : Thread nD τ).loc main_arg4)))
          (times (m ((c : Thread nD τ).loc main_arg2)) (times (m ((c : Thread nD τ).loc main_arg0)) (m ((c : Thread nD τ).loc main_arg3)))))))
        (m ((c : Thread nD τ).loc main_arg5)) := by
  refine ((W4_arr m ρ c 3).trans (Rectify1.final (V3 m ρ) c)).trans ?_
  rw [in1_W m ρ c, in1_B m ρ c, out0 m ρ c, show V3 m ρ c main_arg1 = m ((c : Thread nD τ).loc main_arg1) from at3_arg1 m ρ c]

/-! ## The third region -/

/-- The filter it is entered with: f₂ as a column. -/
theorem in2_f : V5 m ρ c main_v6 = column (m ((c : Thread nD τ).loc main_arg6)) := by
  show StableHlo.after hostOps2 (W4 m ρ c) (Proc.devRef .tc main_v6) = _
  after_results
  rw [at4_arg6 m ρ c]
  exact reshapeColumn _

/-- The features it is entered with: what the second region left. -/
theorem in2_B : V5 m ρ c main_v5 = W4 m ρ c (Proc.devRef .tc main_v5) := by
  show StableHlo.after hostOps2 (W4 m ρ c) (Proc.devRef .tc main_v5) = _
  after_results

/-- What it leaves: S₂ = diag(f₂) · (Ψ⁻¹ · P). -/
theorem out2 : W6 m ρ c (Proc.devRef .tc main_v7)
    = scaleRows (column (m ((c : Thread nD τ).loc main_arg6)))
        (times (m ((c : Thread nD τ).loc main_arg2))
          (times (clampBelow Tiles.zeroWord (times (m ((c : Thread nD τ).loc main_arg1))
            (scaleRows (column (m ((c : Thread nD τ).loc main_arg4)))
              (times (m ((c : Thread nD τ).loc main_arg2)) (times (m ((c : Thread nD τ).loc main_arg0)) (m ((c : Thread nD τ).loc main_arg3)))))))
            (m ((c : Thread nD τ).loc main_arg5)))) := by
  refine ((W6_arr m ρ c 3).trans (Filter2.final (V5 m ρ) c)).trans ?_
  rw [in2_f m ρ c, in2_B m ρ c, out1 m ρ c, show V5 m ρ c main_arg2 = m ((c : Thread nD τ).loc main_arg2) from at5_arg2 m ρ c]

/-! ## The fourth region, and the program's result -/

/-- The result array at the last boundary: Ψ · S₂, two wavelet layers of the arguments as launched. -/
theorem result : W7 m ρ c (Proc.devRef .tc main_v8)
    = times (m ((c : Thread nD τ).loc main_arg1))
        (scaleRows (column (m ((c : Thread nD τ).loc main_arg6)))
          (times (m ((c : Thread nD τ).loc main_arg2))
            (times (clampBelow Tiles.zeroWord (times (m ((c : Thread nD τ).loc main_arg1))
              (scaleRows (column (m ((c : Thread nD τ).loc main_arg4)))
                (times (m ((c : Thread nD τ).loc main_arg2)) (times (m ((c : Thread nD τ).loc main_arg0)) (m ((c : Thread nD τ).loc main_arg3)))))))
              (m ((c : Thread nD τ).loc main_arg5))))) := by
  refine ((W7_arr m ρ c 2).trans (Product3.final (V6 m ρ) c)).trans ?_
  rw [show V6 m ρ c main_v7 = W6 m ρ c (Proc.devRef .tc main_v7) from rfl, out2 m ρ c,
    show V6 m ρ c main_arg1 = m ((c : Thread nD τ).loc main_arg1) from at6_arg1 m ρ c]

end Cert.KernelIdeal.Chain

end
-- ==== Proof.RefLayers.lean ====
/-
  The reference program's result, stage by stage, is two graph-wavelet layers:

      out = Ψ · diag(f₂) · (Ψ⁻¹ · (clampBelow 0 (Ψ · diag(f₁) · (Ψ⁻¹ · (X · W₁))) · W₂))

  Each host product is the matrix product read by coordinates, each filter a vector laid out as a column and
  repeated along the rows, and the rectifier a maximum with the zero word.
-/
import proofs.«147948_j13383118094871_2_alg».proof.Proof.Gen.ReferenceIdeal.Read
import proofs.«147948_j13383118094871_2_alg».proof.Proof.LibMatrixRows

noncomputable section

namespace Cert.ReferenceIdeal.Layered

open Idealize.ShloMosaic Idealize.ShloMosaic.ValueIdx Cert.ReferenceIdeal Cert.ReferenceIdeal.Read Cert.LibMatrixRows
open scoped BigOperators

/-- The rectifier's threshold: the f32 word of zero on the extended reals. -/
abbrev zeroWord : EReal := Ideal.ofBits .f32 0x00000000#32

variable (x0 : Mat 8192 128) (x1 x2 : Mat 8192 8192) (x3 x5 : Mat 128 128) (x4 x6 : Vect 8192)

/-- X · W₁. -/
theorem stage_v0 : val_main_v0 (F := Ideal) x0 x3 = times x0 x3 := by
  funext i
  rw [val_main_v0_apply]
  show _ = ∑ k : Fin 128, x0 (ix2 (i 0) k) * x3 (ix2 k (i 1))
  refine Finset.sum_congr rfl fun k _ => ?_
  rw [show lidx_main_v0 i k = ix2 (i 0) k from funext fun a => by match a with | ⟨0, _⟩ => rfl | ⟨1, _⟩ => rfl,
    show ridx_main_v0 i k = ix2 k (i 1) from funext fun a => by match a with | ⟨0, _⟩ => rfl | ⟨1, _⟩ => rfl]
  rfl

/-- Ψ⁻¹ · (X · W₁). -/
theorem stage_v1 : val_main_v1 (F := Ideal) x0 x2 x3 = times x2 (times x0 x3) := by
  funext i
  rw [val_main_v1_apply, stage_v0]
  show _ = ∑ k : Fin 8192, x2 (ix2 (i 0) k) * times x0 x3 (ix2 k (i 1))
  refine Finset.sum_congr rfl fun k _ => ?_
  rw [show lidx_main_v1 i k = ix2 (i 0) k from funext fun a => by match a with | ⟨0, _⟩ => rfl | ⟨1, _⟩ => rfl,
    show ridx_main_v1 i k = ix2 k (i 1) from funext fun a => by match a with | ⟨0, _⟩ => rfl | ⟨1, _⟩ => rfl]
  rfl

/-- The first filter, repeated along the rows, reads the filter's entry of the row. -/
theorem stage_v3 (i : S8192x128.Idx) : val_main_v3 (F := Ideal) x4 i = column x4 (ix2 (i 0) (0 : Fin 1)) := by
  rw [val_main_v3_apply, val_main_v2_apply]
  exact congrArg x4 (funext fun a => by match a with | ⟨0, _⟩ => rfl)

/-- diag(f₁) · (Ψ⁻¹ · (X · W₁)). -/
theorem stage_v4 : val_main_v4 (F := Ideal) x0 x2 x3 x4 = scaleRows (column x4) (times x2 (times x0 x3)) := by
  funext i
  rw [val_main_v4_apply, stage_v3, stage_v1]
  rfl

/-- Ψ · diag(f₁) · (Ψ⁻¹ · (X · W₁)). -/
theorem stage_v5 : val_main_v5 (F := Ideal) x0 x1 x2 x3 x4 = times x1 (scaleRows (column x4) (times x2 (times x0 x3))) := by
  funext i
  rw [val_main_v5_apply, stage_v4]
  show _ = ∑ k : Fin 8192, x1 (ix2 (i 0) k) * scaleRows (column x4) (times x2 (times x0 x3)) (ix2 k (i 1))
  refine Finset.sum_congr rfl fun k _ => ?_
  rw [show lidx_main_v5 i k = ix2 (i 0) k from funext fun a => by match a with | ⟨0, _⟩ => rfl | ⟨1, _⟩ => rfl,
    show ridx_main_v5 i k = ix2 k (i 1) from funext fun a => by match a with | ⟨0, _⟩ => rfl | ⟨1, _⟩ => rfl]
  rfl

/-- The first layer's output: the rectifier. -/
theorem stage_v6 : val_main_v6 (F := Ideal) x0 x1 x2 x3 x4
    = clampBelow zeroWord (times x1 (scaleRows (column x4) (times x2 (times x0 x3)))) := by
  funext i
  rw [val_main_v6_apply, stage_v5, val_main_call0_v0_apply, val_main_call0_cst_apply]
  rfl

/-- The second layer's projection. -/
theorem stage_v7 : val_main_v7 (F := Ideal) x0 x1 x2 x3 x4 x5
    = times (clampBelow zeroWord (times x1 (scaleRows (column x4) (times x2 (times x0 x3))))) x5 := by
  funext i
  rw [val_main_v7_apply, stage_v6]
  show _ = ∑ k : Fin 128, clampBelow zeroWord (times x1 (scaleRows (column x4) (times x2 (times x0 x3)))) (ix2 (i 0) k) * x5 (ix2 k (i 1))
  refine Finset.sum_congr rfl fun k _ => ?_
  rw [show lidx_main_v7 i k = ix2 (i 0) k from funext fun a => by match a with | ⟨0, _⟩ => rfl | ⟨1, _⟩ => rfl,
    show ridx_main_v7 i k = ix2 k (i 1) from funext fun a => by match a with | ⟨0, _⟩ => rfl | ⟨1, _⟩ => rfl]
  rfl

/-- Into the spectral basis. -/
theorem stage_v8 : val_main_v8 (F := Ideal) x0 x1 x2 x3 x4 x5
    = times x2 (times (clampBelow zeroWord (times x1 (scaleRows (column x4) (times x2 (times x0 x3))))) x5) := by
  funext i
  rw [val_main_v8_apply, stage_v7]
  show _ = ∑ k : Fin 8192, x2 (ix2 (i 0) k) * times (clampBelow zeroWord (times x1 (scaleRows (column x4) (times x2 (times x0 x3))))) x5 (ix2 k (i 1))
  refine Finset.sum_congr rfl fun k _ => ?_
  rw [show lidx_main_v8 i k = ix2 (i 0) k from funext fun a => by match a with | ⟨0, _⟩ => rfl | ⟨1, _⟩ => rfl,
    show ridx_main_v8 i k = ix2 k (i 1) from funext fun a => by match a with | ⟨0, _⟩ => rfl | ⟨1, _⟩ => rfl]
  rfl

/-- The second filter, repeated along the rows. -/
theorem stage_v10 (i : S8192x128.Idx) : val_main_v10 (F := Ideal) x6 i = column x6 (ix2 (i 0) (0 : Fin 1)) := by
  rw [val_main_v10_apply, val_main_v9_apply]
  exact congrArg x6 (funext fun a => by match a with | ⟨0, _⟩ => rfl)

/-- The second layer, filtered. -/
theorem stage_v11 : val_main_v11 (F := Ideal) x0 x1 x2 x3 x4 x5 x6
    = scaleRows (column x6) (times x2 (times (clampBelow zeroWord (times x1 (scaleRows (column x4) (times x2 (times x0 x3))))) x5)) := by
  funext i
  rw [val_main_v11_apply, stage_v10, stage_v8]
  rfl

/-- The reference's result: two layers. -/
theorem result : val_main_v12 (F := Ideal) x0 x1 x2 x3 x4 x5 x6
    = times x1 (scaleRows (column x6) (times x2 (times (clampBelow zeroWord (times x1 (scaleRows (column x4) (times x2 (times x0 x3))))) x5))) := by
  funext i
  rw [val_main_v12_apply, stage_v11]
  show _ = ∑ k : Fin 8192, x1 (ix2 (i 0) k) * scaleRows (column x6) (times x2 (times (clampBelow zeroWord (times x1 (scaleRows (column x4) (times x2 (times x0 x3))))) x5)) (ix2 k (i 1))
  refine Finset.sum_congr rfl fun k _ => ?_
  rw [show lidx_main_v12 i k = ix2 (i 0) k from funext fun a => by match a with | ⟨0, _⟩ => rfl | ⟨1, _⟩ => rfl,
    show ridx_main_v12 i k = ix2 k (i 1) from funext fun a => by match a with | ⟨0, _⟩ => rfl | ⟨1, _⟩ => rfl]
  rfl

end Cert.ReferenceIdeal.Layered

end
-- ==== Proof.lean ====
/-
  Two graph-wavelet layers: a program of four row-tiled matrix kernels against the plain array formula.

      out = Ψ · diag(f₂) · (Ψ⁻¹ · (relu (Ψ · diag(f₁) · (Ψ⁻¹ · (X · W₁))) · W₂))

  The kernel program computes X · W₁ on the host and then runs four grid regions, each streaming 256-row bands of
  Ψ or Ψ⁻¹ against a resident 8192 × 128 right factor: the first and third multiply each row of the product by its
  filter entry, the second clamps the product below at zero and multiplies by W₂ before writing, the fourth is a
  plain product. Between the regions the arrays are narrowed to a 16-bit float format; on the extended reals a
  change of format is the identity, a matrix-unit product into a zero accumulator is the matrix product, and a
  band of rows of a product depends only on the same band of its left factor. So each region leaves one
  whole-array function of what it was entered with (Filter0, Rectify1, Filter2, Product3), the segments compose to
  the formula above (Chain), and the reference's host operations are that formula stage by stage (RefLayers). The
  two sides apply the same operations in the same order, so no algebraic law and no finiteness of the inputs is
  used: the equality holds for all extended-real inputs.
-/
import proofs.«147948_j13383118094871_2_alg».proof.Defs
import proofs.«147948_j13383118094871_2_alg».proof.Proof.Gen.Kernel
import proofs.«147948_j13383118094871_2_alg».proof.Proof.Gen.Kernel.Skeleton
import proofs.«147948_j13383118094871_2_alg».proof.Proof.Gen.Kernel.Launch
import proofs.«147948_j13383118094871_2_alg».proof.Proof.Gen.Kernel.Points
import proofs.«147948_j13383118094871_2_alg».proof.Proof.Gen.Kernel.Frame
import proofs.«147948_j13383118094871_2_alg».proof.Proof.Gen.KernelIdeal
import proofs.«147948_j13383118094871_2_alg».proof.Proof.Gen.KernelIdeal.Skeleton
import proofs.«147948_j13383118094871_2_alg».proof.Proof.Gen.KernelIdeal.Launch
import proofs.«147948_j13383118094871_2_alg».proof.Proof.Gen.KernelIdeal.Points
import proofs.«147948_j13383118094871_2_alg».proof.Proof.Gen.KernelIdeal.Frame
import proofs.«147948_j13383118094871_2_alg».proof.Proof.Gen.ReferenceIdeal
import proofs.«147948_j13383118094871_2_alg».proof.Proof.Gen.Pre_finite_inputs
import proofs.«147948_j13383118094871_2_alg».proof.Proof.Gen.ReferenceIdeal.Read
import proofs.«147948_j13383118094871_2_alg».proof.Proof.ValueRun
import proofs.«147948_j13383118094871_2_alg».proof.Proof.Chain
import proofs.«147948_j13383118094871_2_alg».proof.Proof.RefLayers
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the two-layer formula of the arguments: the kernel program by its segments, the
    reference by its stages; the arguments agree. -/
theorem algebraic : Cert.algebraic_KernelIdeal_ReferenceIdeal := by
  intro m ρ m' ρ' _ hagree
  refine ⟨_, (θ_run Cert.KernelIdeal.defs _ _).mono
      (fun r h c => ⟨(h c).1.trans (Cert.KernelIdeal.Chain.result m ρ c), (h c).2⟩)
      (Cert.KernelIdeal.ValueRun.run (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.Layered.result,
    (hagree c).1, (hagree c).2.1, (hagree c).2.2.1, (hagree c).2.2.2.1, (hagree c).2.2.2.2.1,
    (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
